-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S3x16384 : Shape := ⟨2, ![3, 16384]⟩
abbrev S1x16384 : Shape := ⟨2, ![1, 16384]⟩
abbrev S1024x3 : Shape := ⟨2, ![1024, 3]⟩
abbrev S3x1024 : Shape := ⟨2, ![3, 1024]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩
abbrev S16384 : Shape := ⟨1, ![16384]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S3x16384, .f32⟩
  | .hbm, ⟨3, _⟩ => ⟨S1x16384, .f32⟩
  | .hbm, ⟨4, _⟩ => ⟨S16384, .f32⟩
  | .hbm, ⟨5, _⟩ => ⟨S3x16384, .f32⟩
  | .hbm, ⟨6, _⟩ => ⟨S1x16384, .f32⟩
  | .hbm, ⟨7, _⟩ => ⟨S16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S3x1024, .f32⟩
  | .local _ .vmem, ⟨3, _⟩ => ⟨S3x1024, .f32⟩
  | .local _ .vmem, ⟨4, _⟩ => ⟨S1x1024, .f32⟩
  | .local _ .vmem, ⟨5, _⟩ => ⟨S1x1024, .f32⟩
  | .local _ .vmem, ⟨6, _⟩ => ⟨S1024x3, .f32⟩
  | .local _ .vmem, ⟨7, _⟩ => ⟨S1024x3, .f32⟩
  | .local _ .vmem, ⟨8, _⟩ => ⟨S3x1024, .f32⟩
  | .local _ .vmem, ⟨9, _⟩ => ⟨S3x1024, .f32⟩
  | .local _ .vmem, ⟨10, _⟩ => ⟨S1x1024, .f32⟩
  | .local _ .vmem, ⟨11, _⟩ => ⟨S1x1024, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S16384x3_S3x16384_1_0 : S16384x3.Transposes [1, 0] S3x16384
  inb_S1024x3_S1024x3_0_0 : ∀ a, (![0, 0] : Fin 2 → Nat) a + S1024x3.size a ≤ S1024x3.size a
  h_S1024x3 : 0 < S1024x3.numel
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  reduces_S1024x1024_S1024 : S1024x1024.Reduces [0] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x16384_S16384 : S1x16384.ShapeCasts S16384
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x16384.size a
  hwx0_1 : ∀ i : grid0.Coords, EltTy.bits .f32 = 32 ∨ (Rect.block (s := S3x16384) S3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3.size a ≤ S16384x3.size a
  hwx1_0 : ∀ i : grid1.Coords, EltTy.bits .f32 = 32 ∨ (Rect.block (s := S16384x3) S1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x1024.size a ≤ S3x16384.size a
  hwx1_1 : ∀ i : grid1.Coords, EltTy.bits .f32 = 32 ∨ (Rect.block (s := S3x16384) S3x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x16384.size a
  hwx1_2 : ∀ i : grid1.Coords, EltTy.bits .f32 = 32 ∨ (Rect.block (s := S1x16384) S1x1024.size (cc1_transform_2 i) (hinb1_2 i)).WholeWords (EltTy.packing .f32)

variable [Facts₀]

abbrev win0_0 : Pipeline.Window sig grid0 :=
  Pipeline.Window.ofSpec (Memref.whole main_arg1) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S3x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S3x16384 : Shape := ⟨2, ![3, 16384]⟩

abbrev nBuf : Space → Nat
  | .hbm => 33
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x3, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S3x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  transposes_S16384x1_S1x16384_1_0 : S16384x1.Transposes [1, 0] S1x16384
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x3_S3x16384_1_0 : S16384x3.Transposes [1, 0] S3x16384
  bcast_S_S16384x16384 : S_.BroadcastsInDim S16384x16384 (![] : Fin 0 → Fin S16384x16384.rank)
  reducesTo_S16384x16384_S16384_d1 : S16384x16384.ReducesTo [1] S16384
  reducesTo_S16384x16384_S16384_d0 : S16384x16384.ReducesTo [0] S16384
  reducesTo_S16384_S_d0 : S16384.ReducesTo [0] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.KernelRun.lean ====
import proofs.«165378_j30442728194567_2_alg».proof.Proof.Gen.KernelIdeal.Frame

set_option maxRecDepth 16384

/-! The kernel program's run with its result named: every weakly fair execution terminates, nothing faulting, with
    the result buffer at the contents the fold through the host stretches and the two calls leaves there, and the
    argument arrays as launched. The launch over the program's five segments is the one the frame claim rests on; only
    the final read-out differs: it also reads the result buffer. -/

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read out beside the arguments. -/
theorem run_result : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c)⟩)

end Cert.KernelIdeal.Run

end
-- ==== Proof.Cases0.lean ====
import proofs.«165378_j30442728194567_2_alg».proof.Proof.Gen.KernelIdeal.Frame
import Idealize.ShloMosaic.Lib.Pipeline.Value
import Idealize.ShloMosaic.Lib.Tactic

/-! What each control case of the first call's body leaves in the output's staging buffer, as the body's arithmetic of
    the blocks it loads: the opening case stores the top element and accumulates into it, the middle case accumulates
    into the running contents, the closing case accumulates and then takes the square root. For any float values. -/

noncomputable section

namespace Cert.KernelIdeal.Cases0

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The middle case: the running contents `xo` accumulated with the two blocks. -/
theorem out_B (c : Dev nD) (i : grid0.Coords) (a2 : Memref sig .tc .vmem S1024x3 .f32) (h2 : a2.IsWhole)
    (a3 : Memref sig .tc .vmem S3x1024 .f32) (h3 : a3.IsWhole) (a4 : Memref sig .tc .vmem S1x1024 .f32) (h4 : a4.IsWhole)
    (hc0 : ¬cond0_0 i) (hc1 : ¬cond0_1 i) (x0 : Vec F S1024x3 .f32) (x1 : Vec F S3x1024 .f32) (xo : Vec F S1x1024 .f32) :
    out0_B_2 c i a2 h2 a3 h3 a4 h4 hc0 hc1 x0 x1 xo = k0_pay2 x0 x1 xo := by
  unfold out0_B_2
  rw [View.read_writes_eq_canon _ _ _ (cover0_B_2 c i a2 h2 a3 h3 a4 h4 hc0 hc1 x0 x1 xo)]
  unfold kernelRun0_B
  dsimp only
  rw [View.canon_unit_zero hz]
  simp only [View.readAt_eq_ld, h2.read_unread, h3.read_unread, h4.read_unread, View.ld_unit_zero (S := S1024x3) hz,
    View.ld_unit_zero (S := S3x1024) hz, View.ld_unit_zero (S := S1x1024) hz]

/-- The opening case: the stored top element, read back, accumulated with the two blocks. -/
theorem out_A (c : Dev nD) (i : grid0.Coords) (a2 : Memref sig .tc .vmem S1024x3 .f32) (h2 : a2.IsWhole)
    (a3 : Memref sig .tc .vmem S3x1024 .f32) (h3 : a3.IsWhole) (a4 : Memref sig .tc .vmem S1x1024 .f32) (h4 : a4.IsWhole)
    (hc0 : cond0_0 i) (hc1 : ¬cond0_1 i) (x0 : Vec F S1024x3 .f32) (x1 : Vec F S3x1024 .f32) :
    out0_A_2 c i a2 h2 a3 h3 a4 h4 hc0 hc1 x0 x1 = k0_pay2 x0 x1 k0_pay1 := by
  unfold out0_A_2
  rw [View.read_writes_eq_canon _ _ _ (cover0_A_2 c i a2 h2 a3 h3 a4 h4 hc0 hc1 x0 x1)]
  unfold kernelRun0_A
  dsimp only
  sl_unfold_words
  rw [View.canon_cons_unit_zero (S := S1x1024) hz, View.readCov_unit_zero (S := S1x1024) _ hz]
  simp only [View.readAt_eq_ld, h2.read_unread, h3.read_unread, View.ld_unit_zero (S := S1024x3) hz,
    View.ld_unit_zero (S := S3x1024) hz, View.ld_unit_zero (S := S1x1024) hz]

/-- The closing case: the accumulated contents, read back, under the square root. -/
theorem out_C (c : Dev nD) (i : grid0.Coords) (a2 : Memref sig .tc .vmem S1024x3 .f32) (h2 : a2.IsWhole)
    (a3 : Memref sig .tc .vmem S3x1024 .f32) (h3 : a3.IsWhole) (a4 : Memref sig .tc .vmem S1x1024 .f32) (h4 : a4.IsWhole)
    (hc0 : ¬cond0_0 i) (hc1 : cond0_1 i) (x0 : Vec F S1024x3 .f32) (x1 : Vec F S3x1024 .f32) (xo : Vec F S1x1024 .f32) :
    out0_C_2 c i a2 h2 a3 h3 a4 h4 hc0 hc1 x0 x1 xo = k0_pay3 (k0_pay2 x0 x1 xo) := by
  unfold out0_C_2
  rw [View.read_writes_eq_canon _ _ _ (cover0_C_2 c i a2 h2 a3 h3 a4 h4 hc0 hc1 x0 x1 xo)]
  unfold kernelRun0_C
  dsimp only
  sl_unfold_words
  rw [View.canon_cons_unit_zero (S := S1x1024) hz, View.readCov_unit_zero (S := S1x1024) _ hz]
  simp only [View.readAt_eq_ld, h2.read_unread, h3.read_unread, h4.read_unread, View.ld_unit_zero (S := S1024x3) hz,
    View.ld_unit_zero (S := S3x1024) hz, View.ld_unit_zero (S := S1x1024) hz]

end Cert.KernelIdeal.Cases0

end
-- ==== Proof.LibSqrtMin.lean ====
import Mathlib
import Idealize.ShloMosaic.PureOps.Ideal

/-! General lemmas about minima over the extended reals, free of any program: a fold of `min` from the top element over
    a finite set is the infimum of the family (what a minimum-reduction from `+∞` computes); the square root of the
    extended reals (`√⊤ = ⊤`, `⊥` below zero) is monotone, and therefore moves across a finite infimum — the root of the
    least value is the least of the roots. -/

noncomputable section

namespace Cert.Nearest

open Idealize.ShloMosaic

/-- A fold of `min` from the top element is the infimum. -/
theorem fold_min_top {ι : Type*} (s : Finset ι) (f : ι → EReal) : s.fold min ⊤ f = s.inf f := by
  induction s using Finset.cons_induction with
  | empty => rfl
  | cons a s ha ih => rw [Finset.fold_cons, Finset.inf_cons, ih]

/-- The square root of the extended reals is monotone. -/
theorem sqrt_mono : Monotone Ideal.sqrt := by
  intro x y h
  induction x using EReal.rec with
  | bot => exact bot_le
  | top => rw [top_le_iff.mp h]
  | coe r =>
    induction y using EReal.rec with
    | bot => exact absurd (le_bot_iff.mp h) (EReal.coe_ne_bot r)
    | top => exact le_top
    | coe s =>
      have hrs : r ≤ s := EReal.coe_le_coe_iff.mp h
      rw [Ideal.sqrt_coe, Ideal.sqrt_coe]
      by_cases hr : r < 0
      · rw [if_pos hr]; exact bot_le
      · rw [if_neg hr, if_neg (by linarith)]
        exact EReal.coe_le_coe_iff.mpr (Real.sqrt_le_sqrt hrs)

/-- So the square root of an infimum is the infimum of the square roots (the root of the top element is the top). -/
theorem sqrt_inf {ι : Type*} (s : Finset ι) (f : ι → EReal) : Ideal.sqrt (s.inf f) = s.inf fun b => Ideal.sqrt (f b) :=
  Finset.apply_inf_eq_inf_comp_of_linearOrder Ideal.sqrt sqrt_mono Ideal.sqrt_top

end Cert.Nearest

end
-- ==== Proof.Spec.lean ====
import Mathlib
import Idealize.ShloMosaic.PureOps.Ideal
import Idealize.ShloMosaic.PureOps.Ideal.Laws
import proofs.«165378_j30442728194567_2_alg».proof.Proof.LibSqrtMin

/-! Nearest-neighbour distances over the extended reals: the squared distance of two points of three
    coordinates, the minimum of it over 16384 points taken block by block, and the polarization identity that joins the
    difference-of-coordinates form with the norms-and-inner-product form when every coordinate is a real number. -/

noncomputable section

namespace Cert.Nearest

open Idealize.ShloMosaic

/-- The squared distance of `u` and `v`: the three squared coordinate differences, added left to right. -/
def sqd (u v : Fin 3 → EReal) : EReal :=
  ((u 0 - v 0) * (u 0 - v 0) + (u 1 - v 1) * (u 1 - v 1)) + (u 2 - v 2) * (u 2 - v 2)

/-- The same squared distance spelled through the two squared norms and the inner product, floored at `o`:
    `max ((zu + |u|²) + (zv + |v|²) - c · ⟨u, v⟩) o`. -/
def polar (zu zv c o : EReal) (u v : Fin 3 → EReal) : EReal :=
  max (((zu + (u 0 * u 0 + u 1 * u 1 + u 2 * u 2)) + (zv + (v 0 * v 0 + v 1 * v 1 + v 2 * v 2)))
        - c * (u 0 * v 0 + u 1 * v 1 + u 2 * v 2)) o

/-- The infimum over the first `1024 (k+1)` indices is the minimum of the infimum over the first `1024 k` and the
    infimum over block `k`. -/
theorem inf_below_succ (g : Fin 16384 → EReal) (k : ℕ) (hk : k < 16) :
    (Finset.univ.filter fun b : Fin 16384 => b.val < 1024 * (k + 1)).inf g
      = min ((Finset.univ.filter fun b : Fin 16384 => b.val < 1024 * k).inf g)
          ((Finset.univ : Finset (Fin 1024)).inf fun r => g ⟨1024 * k + r.val, by have := r.isLt; omega⟩) := by
  apply le_antisymm
  · refine le_min (Finset.inf_mono fun b hb => ?_) (Finset.le_inf fun r _ => Finset.inf_le ?_)
    · rw [Finset.mem_filter] at hb ⊢; exact ⟨hb.1, by omega⟩
    · rw [Finset.mem_filter]; exact ⟨Finset.mem_univ _, by have := r.isLt; show 1024 * k + r.val < _; omega⟩
  · refine Finset.le_inf fun b hb => ?_
    rw [Finset.mem_filter] at hb
    by_cases h : b.val < 1024 * k
    · exact (min_le_left _ _).trans (Finset.inf_le (by rw [Finset.mem_filter]; exact ⟨Finset.mem_univ _, h⟩))
    · refine (min_le_right _ _).trans ((Finset.inf_le (Finset.mem_univ (⟨b.val - 1024 * k, by omega⟩ : Fin 1024))).trans ?_)
      exact le_of_eq (congrArg g (Fin.ext (by show 1024 * k + (b.val - 1024 * k) = b.val; omega)))

/-- Below index `0` there is nothing: the infimum is the top element. -/
theorem inf_below_zero (g : Fin 16384 → EReal) :
    (Finset.univ.filter fun b : Fin 16384 => b.val < 1024 * 0).inf g = ⊤ := by
  rw [Finset.filter_false_of_mem (fun b _ => by omega)]; rfl

/-- Below index `16384` is everything. -/
theorem inf_below_all (g : Fin 16384 → EReal) :
    (Finset.univ.filter fun b : Fin 16384 => b.val < 1024 * 16).inf g = Finset.univ.inf g := by
  rw [Finset.filter_true_of_mem (fun b _ => by have := b.isLt; omega)]

/-- Everything, split at the last block: when `k + 1 = 16` the infimum over all indices is the minimum of the infimum
    below `1024 k` and the infimum over block `k`. -/
theorem inf_all_split (g : Fin 16384 → EReal) (k : ℕ) (hk : k + 1 = 16) :
    Finset.univ.inf g
      = min ((Finset.univ.filter fun b : Fin 16384 => b.val < 1024 * k).inf g)
          ((Finset.univ : Finset (Fin 1024)).inf fun r => g ⟨1024 * k + r.val, by have := r.isLt; omega⟩) := by
  rw [← inf_below_succ g k (by omega), Finset.filter_true_of_mem (fun b _ => by have := b.isLt; omega)]

/-- The polarization identity for points with real coordinates: with the two offsets `0`, the factor `2` and the floor
    `0`, the norms-and-inner-product form is the squared distance (in either order of the two points), which is
    nonnegative, so the floor does nothing. -/
theorem polar_eq_sqd (a b : Fin 3 → ℝ) :
    polar 0 0 2 0 (fun k => (a k : EReal)) (fun k => (b k : EReal)) = sqd (fun k => (b k : EReal)) (fun k => (a k : EReal)) := by
  unfold polar sqd
  have h2 : (2 : EReal) = ((2 : ℝ) : EReal) := by norm_cast
  rw [h2]
  simp only [← EReal.coe_mul, ← EReal.coe_add, ← EReal.coe_sub, ← EReal.coe_zero]
  have e : (0 + (a 0 * a 0 + a 1 * a 1 + a 2 * a 2) + (0 + (b 0 * b 0 + b 1 * b 1 + b 2 * b 2)) - 2 * (a 0 * b 0 + a 1 * b 1 + a 2 * b 2) : ℝ)
      = (b 0 - a 0) * (b 0 - a 0) + (b 1 - a 1) * (b 1 - a 1) + (b 2 - a 2) * (b 2 - a 2) := by ring
  have hn : (0 : ℝ) ≤ (b 0 - a 0) * (b 0 - a 0) + (b 1 - a 1) * (b 1 - a 1) + (b 2 - a 2) * (b 2 - a 2) :=
    add_nonneg (add_nonneg (mul_self_nonneg _) (mul_self_nonneg _)) (mul_self_nonneg _)
  rw [e, max_eq_left (EReal.coe_le_coe_iff.mpr hn)]

theorem sqd_comm_real (a b : Fin 3 → ℝ) :
    sqd (fun k => (b k : EReal)) (fun k => (a k : EReal)) = sqd (fun k => (a k : EReal)) (fun k => (b k : EReal)) := by
  unfold sqd
  simp only [← EReal.coe_mul, ← EReal.coe_add, ← EReal.coe_sub]
  exact congrArg _ (by ring)

end Cert.Nearest

end
-- ==== Proof.Payload0.lean ====
import proofs.«165378_j30442728194567_2_alg».proof.Proof.Gen.KernelIdeal.Skeleton
import proofs.«165378_j30442728194567_2_alg».proof.Proof.Spec
import Idealize.ShloMosaic.Lib.Pipeline.Value
import Idealize.ShloMosaic.Lib.ValueIdx
import Idealize.ShloMosaic.PureOps.Ideal.Laws

/-! The arithmetic of the first call's body, read at an index over the extended reals: from a block of 1024 "other"
    points (rows of three coordinates), a block of 1024 "anchor" points (columns of three coordinates) and the running
    minimum, the body leaves at anchor `a` the minimum of the running value and of the squared distances from the
    1024 other points to that anchor; the closing step takes the square root; the opening step stores the top element. -/

noncomputable section

namespace Cert.KernelIdeal.Pay0

open Cert.KernelIdeal Cert.KernelIdeal.Gen Idealize.ShloMosaic Idealize.ShloMosaic.ValueIdx Cert.Nearest

/-- A vector of 1024 entries recast as one row, read at `(0, a)`, is entry `a`. -/
theorem oneRow_apply (hsc : S1024.ShapeCasts S1x1024) (z : FVec Ideal S1024 .f32) (a : Fin 1024) :
    shapeCast S1x1024 z hsc (ix2 (0 : Fin 1) a) = z (ix1 a) :=
  (shapeCast_addUnit_apply ![1024] z hsc (ix2 (0 : Fin 1) a)).trans
    (congrArg z (funext fun d => by fin_cases d; rfl))

/-- Column `k` of the other points' block, spread over the 1024 anchors, read at `(r, a)`, is coordinate `k` of
    other point `r`. -/
theorem col_apply (x0 : Vec Ideal S1024x3 .f32) (off : Fin 2 → Nat) (k : Fin 3) (hoff : off = ![0, k.val])
    (hs : S1024x3.Slices off S1024x1) (hb : S1024x1.Broadcasts S1024x1024) (r a : Fin 1024) :
    broadcastTo S1024x1024 (extractStridedSlice S1024x1 off x0 hs) hb (ix2 r a) = x0 (ix2 r k) := by
  subst hoff
  refine (broadcastTo_apply _ hb (ix2 r a) (ix2 r (0 : Fin 1)) fun d => ?_).trans
    (extractStridedSlice_apply _ x0 hs (ix2 r (0 : Fin 1)) (ix2 r k) fun d => ?_)
  · match d with
    | ⟨0, _⟩ => show r.val = if (1024 : Nat) = 1 then 0 else r.val; rw [if_neg (by decide)]
    | ⟨1, _⟩ => show 0 = if (1 : Nat) = 1 then 0 else a.val; rw [if_pos rfl]
  · match d with
    | ⟨0, _⟩ => show r.val = 0 + r.val; omega
    | ⟨1, _⟩ => show k.val = k.val + 0; omega

/-- Row `k` of the anchors' block, spread over the 1024 other points, read at `(r, a)`, is coordinate `k` of
    anchor `a`. -/
theorem row_apply (x1 : Vec Ideal S3x1024 .f32) (off : Fin 2 → Nat) (k : Fin 3) (hoff : off = ![k.val, 0])
    (hs : S3x1024.Slices off S1x1024) (hb : S1x1024.Broadcasts S1024x1024) (r a : Fin 1024) :
    broadcastTo S1024x1024 (extractStridedSlice S1x1024 off x1 hs) hb (ix2 r a) = x1 (ix2 k a) := by
  subst hoff
  refine (broadcastTo_apply _ hb (ix2 r a) (ix2 (0 : Fin 1) a) fun d => ?_).trans
    (extractStridedSlice_apply _ x1 hs (ix2 (0 : Fin 1) a) (ix2 k a) fun d => ?_)
  · match d with
    | ⟨0, _⟩ => show 0 = if (1 : Nat) = 1 then 0 else r.val; rw [if_pos rfl]
    | ⟨1, _⟩ => show a.val = if (1024 : Nat) = 1 then 0 else a.val; rw [if_neg (by decide)]
  · match d with
    | ⟨0, _⟩ => show k.val = k.val + 0; omega
    | ⟨1, _⟩ => show a.val = 0 + a.val; omega

/-- The infinity pattern is the top element. -/
theorem ofBits_inf : (Ideal.ofBits .f32 0x7F800000#32 : EReal) = ⊤ := by simp [Ideal.ofBits, Ideal.ieee]

/-- The minimum over the rows of a 1024 × 1024 array, from the top element, read at column `a`, is the infimum of
    that column. -/
theorem colMin_apply (v : FVec Ideal S1024x1024 .f32) (h : S1024x1024.Reduces [0] S1024) (hφ : FKind.Formats .f32)
    (hacc : (0x7F800000#32 : BitVec 32) = FKind.minimumf.neutral .f32 hφ) (a : Fin 1024) :
    multiReduction .minimumf [0] S1024 v 0x7F800000#32 h hφ hacc (ix1 a)
      = (Finset.univ : Finset (Fin 1024)).inf fun r => v (ix2 r a) := by
  rw [multiReduction_minimumf_eq_fold, h.fold_filter_drop_single]
  have hf : (v ∘ h.lift (ix1 a) : Fin 1024 → EReal) = fun r : Fin 1024 => v (ix2 r a) :=
    funext fun r => congrArg v (funext fun d => Fin.ext (by fin_cases d <;> rfl))
  refine Eq.trans ?_ (fold_min_top Finset.univ fun r : Fin 1024 => v (ix2 r a))
  rw [← ofBits_inf, ← hf]
  rfl

/-- The accumulating step at anchor `a`. -/
theorem pay2_apply (x0 : Vec Ideal S1024x3 .f32) (x1 : Vec Ideal S3x1024 .f32) (acc : Vec Ideal S1x1024 .f32) (a : Fin 1024) :
    k0_pay2 (F := Ideal) x0 x1 acc (ix2 (0 : Fin 1) a)
      = min (acc (ix2 (0 : Fin 1) a))
          ((Finset.univ : Finset (Fin 1024)).inf fun r => sqd (fun k => x0 (ix2 r k)) (fun k => x1 (ix2 k a))) := by
  unfold k0_pay2
  dsimp only
  refine (minimumf_apply _ _ _).trans (congrArg₂ min (congrFun (shapeCast_self acc _) _) ?_)
  refine (oneRow_apply _ _ a).trans ((colMin_apply _ _ _ _ a).trans (Finset.inf_congr rfl fun r _ => ?_))
  simp only [addf_apply, mulf_apply, subf_apply, shapeCast_self]
  rw [col_apply x0 ![0, 0] 0 rfl slices_S1024x3_o0_0_S1024x1 broadcasts_S1024x1_S1024x1024 r a,
    col_apply x0 ![0, 1] 1 rfl slices_S1024x3_o0_1_S1024x1 broadcasts_S1024x1_S1024x1024 r a,
    col_apply x0 ![0, 2] 2 rfl slices_S1024x3_o0_2_S1024x1 broadcasts_S1024x1_S1024x1024 r a,
    row_apply x1 ![0, 0] 0 rfl slices_S3x1024_o0_0_S1x1024 broadcasts_S1x1024_S1024x1024 r a,
    row_apply x1 ![1, 0] 1 rfl slices_S3x1024_o1_0_S1x1024 broadcasts_S1x1024_S1024x1024 r a,
    row_apply x1 ![2, 0] 2 rfl slices_S3x1024_o2_0_S1x1024 broadcasts_S1x1024_S1024x1024 r a]
  rfl

/-- The closing step at anchor `a`: the square root. -/
theorem pay3_apply (v : Vec Ideal S1x1024 .f32) (a : Fin 1024) :
    k0_pay3 (F := Ideal) v (ix2 (0 : Fin 1) a) = Ideal.sqrt (v (ix2 (0 : Fin 1) a)) := by
  unfold k0_pay3
  simp only [shapeCast_self]
  rfl

/-- The opening step stores the top element. -/
theorem pay1_apply (a : Fin 1024) : k0_pay1 (F := Ideal) (ix2 (0 : Fin 1) a) = ⊤ := by
  unfold k0_pay1
  exact ofBits_inf

end Cert.KernelIdeal.Pay0

end
-- ==== Proof.Region0.lean ====
import proofs.«165378_j30442728194567_2_alg».proof.Proof.Gen.KernelIdeal.Frame
import proofs.«165378_j30442728194567_2_alg».proof.Proof.Cases0
import proofs.«165378_j30442728194567_2_alg».proof.Proof.Payload0
import proofs.«165378_j30442728194567_2_alg».proof.Proof.Spec
import Idealize.ShloMosaic.Lib.Pipeline.Value
import Idealize.ShloMosaic.Lib.ValueIdx

/-! The first call, read as values over the extended reals. Its grid is 16 × 16: point `16 q + j` holds anchor block
    `q` (1024 columns of the transposed anchors) and other block `j` (1024 rows of the other points). Along `j` the
    output block `q` carries the running minimum of the squared distances from the other points seen so far; the last
    `j` takes the square root and the block is written back. So the output array ends, at anchor `A`, at the square
    root of the minimum over all 16384 other points of the squared distance to anchor `A`. -/

noncomputable section

namespace Cert.KernelIdeal.Reg0

open Cert.KernelIdeal Cert.KernelIdeal.Gen Idealize.ShloMosaic Idealize.ShloMosaic.TcCoe Idealize.SL.Sem
open Idealize.ShloMosaic.ValueIdx Cert.Nearest
open Idealize.ShloMosaic.Pipeline (Dat)

variable (V : (c : Dev nD) → (b : Ref sig .tc) → Buf (Elt Ideal) ((c : Thread nD τ).loc b))

/-- Other point `b`: row `b` of the call's first operand. -/
def oth (c : Dev nD) (b : Fin 16384) : Fin 3 → EReal := fun k => V c main_arg1 (ix2 b k)
/-- Anchor `A`: column `A` of the call's second operand. -/
def anc (c : Dev nD) (A : Fin 16384) : Fin 3 → EReal := fun k => V c main_v0 (ix2 k A)

/-- Entry `a` of block `q`. -/
def blkIdx (q : Fin 16) (a : Fin 1024) : Fin 16384 := ⟨1024 * q.val + a.val, by have := q.isLt; have := a.isLt; omega⟩

/-- The squared distances from every other point to anchor `a` of block `q`. -/
def dists (c : Dev nD) (q : Fin 16) (a : Fin 1024) : Fin 16384 → EReal := fun b => sqd (oth V c b) (anc V c (blkIdx q a))

/-- The printed index maps over the grid: the other points' block moves with `t % 16`, the anchors' and the output's
    with `t / 16`. -/
theorem idx_facts : ∀ t : Fin cfg0.N, win0_0.index t (0 : Fin 2) = t.val % 16 ∧ win0_0.index t (1 : Fin 2) = 0
    ∧ win0_1.index t (0 : Fin 2) = 0 ∧ win0_1.index t (1 : Fin 2) = t.val / 16
    ∧ win0_2.index t (0 : Fin 2) = 0 ∧ win0_2.index t (1 : Fin 2) = t.val / 16 :=
  (by decide +kernel : ∀ t : Fin grid0.N, _)

/-- The other points' block at point `16 q + j` is rows `1024 j …`. -/
theorem iblk_oth (c : Dev nD) (t : Fin cfg0.N) (q j : Fin 16) (ht : t.val = 16 * q.val + j.val) (r : Fin 1024) (k : Fin 3) :
    (iblk0 V c 0 t : Vec Ideal S1024x3 .f32) (ix2 r k) = oth V c (blkIdx j r) k := by
  unfold iblk0 oth
  rw [View.read_apply]
  show V c main_arg1 _ = V c main_arg1 _
  refine congrArg (V c main_arg1) (funext fun d => Fin.ext ?_)
  obtain ⟨e0, e1, -⟩ := idx_facts t
  have hj := j.isLt
  match d with
  | ⟨0, _⟩ => show win0_0.index t (0 : Fin 2) * 1024 + 1 * r.val = 1024 * j.val + r.val; omega
  | ⟨1, _⟩ => show win0_0.index t (1 : Fin 2) * 3 + 1 * k.val = k.val; omega

/-- The anchors' block at point `16 q + j` is columns `1024 q …`. -/
theorem iblk_anc (c : Dev nD) (t : Fin cfg0.N) (q j : Fin 16) (ht : t.val = 16 * q.val + j.val) (a : Fin 1024) (k : Fin 3) :
    (iblk0 V c 1 t : Vec Ideal S3x1024 .f32) (ix2 k a) = anc V c (blkIdx q a) k := by
  unfold iblk0 anc
  rw [View.read_apply]
  show V c main_v0 _ = V c main_v0 _
  refine congrArg (V c main_v0) (funext fun d => Fin.ext ?_)
  obtain ⟨-, -, e2, e3, -⟩ := idx_facts t
  have hj := j.isLt
  match d with
  | ⟨0, _⟩ => show win0_1.index t (0 : Fin 2) * 3 + 1 * k.val = k.val; omega
  | ⟨1, _⟩ => show win0_1.index t (1 : Fin 2) * 1024 + 1 * a.val = 1024 * q.val + a.val; omega

/-- The block's share of the minimum at point `16 q + j`: the infimum over block `j` of the distances to anchor `a` of block `q`. -/
theorem block_inf (c : Dev nD) (t : Fin cfg0.N) (q j : Fin 16) (ht : t.val = 16 * q.val + j.val) (a : Fin 1024) :
    ((Finset.univ : Finset (Fin 1024)).inf fun r =>
        sqd (fun k => (iblk0 V c 0 t : Vec Ideal S1024x3 .f32) (ix2 r k)) (fun k => (iblk0 V c 1 t : Vec Ideal S3x1024 .f32) (ix2 k a)))
      = (Finset.univ : Finset (Fin 1024)).inf fun r => dists V c q a (blkIdx j r) :=
  Finset.inf_congr rfl fun r _ =>
    congrArg₂ sqd (funext fun k => iblk_oth V c t q j ht r k) (funext fun k => iblk_anc V c t q j ht a k)

/-- What the output's staging buffer holds at anchor `a` after point `16 q + j`: the minimum over the other points of
    blocks `0 … j`, and at the last `j` its square root over all of them. -/
def running (c : Dev nD) (q : Fin 16) (j : ℕ) (a : Fin 1024) : EReal :=
  if j = 15 then Ideal.sqrt (Finset.univ.inf (dists V c q a))
  else (Finset.univ.filter fun b : Fin 16384 => b.val < 1024 * (j + 1)).inf (dists V c q a)

theorem outsAt_eq (c : Dev nD) (q : Fin 16) : ∀ (j : ℕ) (hj : j < 16) (hn : 16 * q.val + j < cfg0.N) (a : Fin 1024),
    outsAt0 V c (16 * q.val + j) hn (ix2 (0 : Fin 1) a) = running V c q j a
  | 0, hj, hn, a => by
    have hA := outsAt0_A V c ⟨16 * q.val + 0, hn⟩ (by show (16 * q.val + 0) % 16 = 0; omega)
      (by show ¬(16 * q.val + 0) % 16 = 15; omega)
    rw [show outsAt0 V c (16 * q.val + 0) hn = _ from hA, Cases0.out_A]
    refine (Pay0.pay2_apply (iblk0 V c 0 ⟨16 * q.val + 0, hn⟩) (iblk0 V c 1 ⟨16 * q.val + 0, hn⟩) _ a).trans ?_
    rw [Pay0.pay1_apply, block_inf V c ⟨16 * q.val + 0, hn⟩ q 0 rfl a]
    unfold running
    rw [if_neg (by omega), inf_below_succ _ 0 (by omega), inf_below_zero]
    rfl
  | j + 1, hj, hn, a => by
    have ih := outsAt_eq c q j (by omega) (by omega) a
    have same : ∀ (u : ℕ) (hu : u < cfg0.N) (e : u = 16 * q.val + j),
        outsAt0 V c u hu = outsAt0 V c (16 * q.val + j) (by omega) := by
      intro u hu e; subst e; rfl
    by_cases h15 : j + 1 = 15
    · have hC := outsAt0_C V c ⟨16 * q.val + (j + 1), hn⟩ (by show ¬(16 * q.val + (j + 1)) % 16 = 0; omega)
        (by show (16 * q.val + (j + 1)) % 16 = 15; omega)
      rw [show outsAt0 V c (16 * q.val + (j + 1)) hn = _ from hC, Cases0.out_C]
      refine (Pay0.pay3_apply _ a).trans ?_
      refine (congrArg Ideal.sqrt (Pay0.pay2_apply (iblk0 V c 0 ⟨16 * q.val + (j + 1), hn⟩)
        (iblk0 V c 1 ⟨16 * q.val + (j + 1), hn⟩) _ a)).trans ?_
      rw [block_inf V c ⟨16 * q.val + (j + 1), hn⟩ q ⟨j + 1, hj⟩ rfl a,
        same _ _ (by show 16 * q.val + (j + 1) - 1 = 16 * q.val + j; omega), ih]
      unfold running
      rw [if_neg (by omega), if_pos h15, inf_all_split (dists V c q a) (j + 1) (by omega)]
      rfl
    · have hB := outsAt0_B V c ⟨16 * q.val + (j + 1), hn⟩ (by show ¬(16 * q.val + (j + 1)) % 16 = 0; omega)
        (by show ¬(16 * q.val + (j + 1)) % 16 = 15; omega)
      rw [show outsAt0 V c (16 * q.val + (j + 1)) hn = _ from hB, Cases0.out_B]
      refine (Pay0.pay2_apply (iblk0 V c 0 ⟨16 * q.val + (j + 1), hn⟩)
        (iblk0 V c 1 ⟨16 * q.val + (j + 1), hn⟩) _ a).trans ?_
      rw [block_inf V c ⟨16 * q.val + (j + 1), hn⟩ q ⟨j + 1, hj⟩ rfl a,
        same _ _ (by show 16 * q.val + (j + 1) - 1 = 16 * q.val + j; omega), ih]
      unfold running
      rw [if_neg (by omega), if_neg h15, inf_below_succ (dists V c q a) (j + 1) (by omega)]
      rfl

/-- What the output array holds after the call: at anchor `A` the square root of the least squared distance from the
    other points. -/
def result (c : Dev nD) : Buf (Elt Ideal) ((c : Thread nD τ).loc main_v1) :=
  fun i => Ideal.sqrt (Finset.univ.inf fun b => sqd (oth V c b) (anc V c ⟨(i 1).val, (i 1).isLt⟩))

/-- After the last point of row `q` the staging buffer holds block `q` of `result`. -/
theorem last_eq (c : Dev nD) (t : Fin cfg0.N) (q : Fin 16) (ht : t.val = 16 * q.val + 15) (a : Fin 1024) :
    outsAt0 V c t.val t.isLt (ix2 (0 : Fin 1) a) = result V c (ix2 (0 : Fin 1) (blkIdx q a)) := by
  have same : ∀ (u : ℕ) (hu : u < cfg0.N) (e : u = 16 * q.val + 15),
      outsAt0 V c u hu = outsAt0 V c (16 * q.val + 15) (by omega) := by
    intro u hu e; subst e; rfl
  rw [same _ _ ht, outsAt_eq V c q 15 (by omega) _ a]
  unfold running result dists
  rw [if_pos rfl]
  rfl

/-- What a writing point writes back is its block of `result`. -/
theorem flushed_eq (c : Dev nD) (t : Fin cfg0.N) (hf : (cfg0.win 2).flush t = true) :
    (dat0 V c).flushed 2 t = ((cfg0.win 2).blk t).view.read (Elt Ideal) (result V c) := by
  have h15 := (flush0_2 t).mp hf
  have hN : cfg0.N = 256 := N_0
  have htl := t.isLt
  obtain ⟨-, -, -, -, e4, e5⟩ := idx_facts t
  show (cfg0.win 2).cut (grid0.coords t) ((dat0 V c).after 2 t) = _
  rw [after0_2]
  refine funext fun (y : S1x1024.Idx) => ?_
  rw [View.read_apply]
  have hy0 : (y 0).val < 1 := (y 0).isLt
  have hy : y = ix2 (0 : Fin 1) ⟨(y 1).val, (y 1).isLt⟩ := by
    funext d
    match d with
    | ⟨0, _⟩ => exact Fin.ext (by show (y 0).val = 0; omega)
    | ⟨1, _⟩ => rfl
  have hidx : ((cfg0.win 2).blk t).view.emb y
      = ix2 (0 : Fin 1) (blkIdx ⟨t.val / 16, by omega⟩ ⟨(y 1).val, (y 1).isLt⟩) := by
    funext d; apply Fin.ext
    match d with
    | ⟨0, _⟩ => show win0_2.index t (0 : Fin 2) * 1 + 1 * (y 0).val = 0; omega
    | ⟨1, _⟩ => show win0_2.index t (1 : Fin 2) * 1024 + 1 * (y 1).val = 1024 * (t.val / 16) + (y 1).val; omega
  rw [hidx]
  exact (congrArg (outsAt0 V c t.val t.isLt) hy).trans
    (last_eq V c t ⟨t.val / 16, by omega⟩ (by show t.val = 16 * (t.val / 16) + 15; omega) ⟨(y 1).val, (y 1).isLt⟩)

/-- Every anchor's entry is in the block of the last point of its row. -/
theorem cover (i : S1x16384.Idx) : ∃ t : Fin cfg0.N, (cfg0.win 2).flush t = true ∧ i ∈ ((cfg0.win 2).blk t).view.set := by
  have hN : cfg0.N = 256 := N_0
  have h0 : (i 0).val < 1 := (i 0).isLt
  have h1 : (i 1).val < 16384 := (i 1).isLt
  have ht : 16 * ((i 1).val / 1024) + 15 < cfg0.N := by omega
  obtain ⟨-, -, -, -, e4, e5⟩ := idx_facts ⟨16 * ((i 1).val / 1024) + 15, ht⟩
  refine ⟨⟨16 * ((i 1).val / 1024) + 15, ht⟩, (flush0_2 _).mpr (by show (16 * ((i 1).val / 1024) + 15) % 16 = 15; omega), ?_⟩
  show i ∈ ((View.whole main_v1).slice (win0_2.rect ⟨16 * ((i 1).val / 1024) + 15, ht⟩)).set
  rw [View.set_slice_whole, Rect.mem_set_unit]
  intro a
  match a with
  | ⟨0, _⟩ =>
    show win0_2.index ⟨16 * ((i 1).val / 1024) + 15, ht⟩ (0 : Fin 2) * 1 ≤ (i 0).val
      ∧ (i 0).val < win0_2.index ⟨16 * ((i 1).val / 1024) + 15, ht⟩ (0 : Fin 2) * 1 + 1
    rw [e4]; omega
  | ⟨1, _⟩ =>
    show win0_2.index ⟨16 * ((i 1).val / 1024) + 15, ht⟩ (1 : Fin 2) * 1024 ≤ (i 1).val
      ∧ (i 1).val < win0_2.index ⟨16 * ((i 1).val / 1024) + 15, ht⟩ (1 : Fin 2) * 1024 + 1024
    rw [e5]
    show (16 * ((i 1).val / 1024) + 15) / 16 * 1024 ≤ (i 1).val ∧ (i 1).val < (16 * ((i 1).val / 1024) + 15) / 16 * 1024 + 1024
    omega

/-- The output array after the call. -/
theorem final (c : Dev nD) : (dat0 V c).arrAt 2 cfg0.N = result V c :=
  (dat0 V c).arrAt_eq_of_cover 2 (result V c) (flushed_eq V c) cover

end Cert.KernelIdeal.Reg0

end
-- ==== Proof.Cases1.lean ====
import proofs.«165378_j30442728194567_2_alg».proof.Proof.Gen.KernelIdeal.Frame
import Idealize.ShloMosaic.Lib.Pipeline.Value
import Idealize.ShloMosaic.Lib.Tactic

/-! What each control case of the second call's body leaves in the output's staging buffer, as the body's arithmetic of
    the blocks it loads: the opening case stores the top element and accumulates into it, the middle case accumulates
    into the running contents, the closing case accumulates and then takes the square root. For any float values. -/

noncomputable section

namespace Cert.KernelIdeal.Cases1

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The middle case: the running contents `xo` accumulated with the two blocks. -/
theorem out_B (c : Dev nD) (i : grid1.Coords) (a2 : Memref sig .tc .vmem S1024x3 .f32) (h2 : a2.IsWhole)
    (a3 : Memref sig .tc .vmem S3x1024 .f32) (h3 : a3.IsWhole) (a4 : Memref sig .tc .vmem S1x1024 .f32) (h4 : a4.IsWhole)
    (hc0 : ¬cond1_0 i) (hc1 : ¬cond1_1 i) (x0 : Vec F S1024x3 .f32) (x1 : Vec F S3x1024 .f32) (xo : Vec F S1x1024 .f32) :
    out1_B_2 c i a2 h2 a3 h3 a4 h4 hc0 hc1 x0 x1 xo = k1_pay2 x0 x1 xo := by
  unfold out1_B_2
  rw [View.read_writes_eq_canon _ _ _ (cover1_B_2 c i a2 h2 a3 h3 a4 h4 hc0 hc1 x0 x1 xo)]
  unfold kernelRun1_B
  dsimp only
  rw [View.canon_unit_zero hz]
  simp only [View.readAt_eq_ld, h2.read_unread, h3.read_unread, h4.read_unread, View.ld_unit_zero (S := S1024x3) hz,
    View.ld_unit_zero (S := S3x1024) hz, View.ld_unit_zero (S := S1x1024) hz]

/-- The opening case: the stored top element, read back, accumulated with the two blocks. -/
theorem out_A (c : Dev nD) (i : grid1.Coords) (a2 : Memref sig .tc .vmem S1024x3 .f32) (h2 : a2.IsWhole)
    (a3 : Memref sig .tc .vmem S3x1024 .f32) (h3 : a3.IsWhole) (a4 : Memref sig .tc .vmem S1x1024 .f32) (h4 : a4.IsWhole)
    (hc0 : cond1_0 i) (hc1 : ¬cond1_1 i) (x0 : Vec F S1024x3 .f32) (x1 : Vec F S3x1024 .f32) :
    out1_A_2 c i a2 h2 a3 h3 a4 h4 hc0 hc1 x0 x1 = k1_pay2 x0 x1 k1_pay1 := by
  unfold out1_A_2
  rw [View.read_writes_eq_canon _ _ _ (cover1_A_2 c i a2 h2 a3 h3 a4 h4 hc0 hc1 x0 x1)]
  unfold kernelRun1_A
  dsimp only
  sl_unfold_words
  rw [View.canon_cons_unit_zero (S := S1x1024) hz, View.readCov_unit_zero (S := S1x1024) _ hz]
  simp only [View.readAt_eq_ld, h2.read_unread, h3.read_unread, View.ld_unit_zero (S := S1024x3) hz,
    View.ld_unit_zero (S := S3x1024) hz, View.ld_unit_zero (S := S1x1024) hz]

/-- The closing case: the accumulated contents, read back, under the square root. -/
theorem out_C (c : Dev nD) (i : grid1.Coords) (a2 : Memref sig .tc .vmem S1024x3 .f32) (h2 : a2.IsWhole)
    (a3 : Memref sig .tc .vmem S3x1024 .f32) (h3 : a3.IsWhole) (a4 : Memref sig .tc .vmem S1x1024 .f32) (h4 : a4.IsWhole)
    (hc0 : ¬cond1_0 i) (hc1 : cond1_1 i) (x0 : Vec F S1024x3 .f32) (x1 : Vec F S3x1024 .f32) (xo : Vec F S1x1024 .f32) :
    out1_C_2 c i a2 h2 a3 h3 a4 h4 hc0 hc1 x0 x1 xo = k1_pay3 (k1_pay2 x0 x1 xo) := by
  unfold out1_C_2
  rw [View.read_writes_eq_canon _ _ _ (cover1_C_2 c i a2 h2 a3 h3 a4 h4 hc0 hc1 x0 x1 xo)]
  unfold kernelRun1_C
  dsimp only
  sl_unfold_words
  rw [View.canon_cons_unit_zero (S := S1x1024) hz, View.readCov_unit_zero (S := S1x1024) _ hz]
  simp only [View.readAt_eq_ld, h2.read_unread, h3.read_unread, h4.read_unread, View.ld_unit_zero (S := S1024x3) hz,
    View.ld_unit_zero (S := S3x1024) hz, View.ld_unit_zero (S := S1x1024) hz]

end Cert.KernelIdeal.Cases1

end
-- ==== Proof.Payload1.lean ====
import proofs.«165378_j30442728194567_2_alg».proof.Proof.Payload0

/-! The arithmetic of the second call's body, read at an index over the extended reals: the same three steps as the
    first call's, on its own payloads. -/

noncomputable section

namespace Cert.KernelIdeal.Pay1

open Cert.KernelIdeal Cert.KernelIdeal.Gen Idealize.ShloMosaic Idealize.ShloMosaic.ValueIdx Cert.Nearest Cert.KernelIdeal.Pay0

/-- The accumulating step at anchor `a`. -/
theorem pay2_apply (x0 : Vec Ideal S1024x3 .f32) (x1 : Vec Ideal S3x1024 .f32) (acc : Vec Ideal S1x1024 .f32) (a : Fin 1024) :
    k1_pay2 (F := Ideal) x0 x1 acc (ix2 (0 : Fin 1) a)
      = min (acc (ix2 (0 : Fin 1) a))
          ((Finset.univ : Finset (Fin 1024)).inf fun r => sqd (fun k => x0 (ix2 r k)) (fun k => x1 (ix2 k a))) := by
  unfold k1_pay2
  dsimp only
  refine (minimumf_apply _ _ _).trans (congrArg₂ min (congrFun (shapeCast_self acc _) _) ?_)
  refine (oneRow_apply _ _ a).trans ((colMin_apply _ _ _ _ a).trans (Finset.inf_congr rfl fun r _ => ?_))
  simp only [addf_apply, mulf_apply, subf_apply, shapeCast_self]
  rw [col_apply x0 ![0, 0] 0 rfl slices_S1024x3_o0_0_S1024x1 broadcasts_S1024x1_S1024x1024 r a,
    col_apply x0 ![0, 1] 1 rfl slices_S1024x3_o0_1_S1024x1 broadcasts_S1024x1_S1024x1024 r a,
    col_apply x0 ![0, 2] 2 rfl slices_S1024x3_o0_2_S1024x1 broadcasts_S1024x1_S1024x1024 r a,
    row_apply x1 ![0, 0] 0 rfl slices_S3x1024_o0_0_S1x1024 broadcasts_S1x1024_S1024x1024 r a,
    row_apply x1 ![1, 0] 1 rfl slices_S3x1024_o1_0_S1x1024 broadcasts_S1x1024_S1024x1024 r a,
    row_apply x1 ![2, 0] 2 rfl slices_S3x1024_o2_0_S1x1024 broadcasts_S1x1024_S1024x1024 r a]
  rfl

/-- The closing step at anchor `a`: the square root. -/
theorem pay3_apply (v : Vec Ideal S1x1024 .f32) (a : Fin 1024) :
    k1_pay3 (F := Ideal) v (ix2 (0 : Fin 1) a) = Ideal.sqrt (v (ix2 (0 : Fin 1) a)) := by
  unfold k1_pay3
  simp only [shapeCast_self]
  rfl

/-- The opening step stores the top element. -/
theorem pay1_apply (a : Fin 1024) : k1_pay1 (F := Ideal) (ix2 (0 : Fin 1) a) = ⊤ := by
  unfold k1_pay1
  exact ofBits_inf

end Cert.KernelIdeal.Pay1

end
-- ==== Proof.Region1.lean ====
import proofs.«165378_j30442728194567_2_alg».proof.Proof.Gen.KernelIdeal.Frame
import proofs.«165378_j30442728194567_2_alg».proof.Proof.Cases1
import proofs.«165378_j30442728194567_2_alg».proof.Proof.Payload1
import proofs.«165378_j30442728194567_2_alg».proof.Proof.Spec
import Idealize.ShloMosaic.Lib.Pipeline.Value
import Idealize.ShloMosaic.Lib.ValueIdx

/-! The second call, read as values over the extended reals. Its grid is 16 × 16: point `16 q + j` holds anchor block
    `q` (1024 columns of the transposed anchors) and other block `j` (1024 rows of the other points). Along `j` the
    output block `q` carries the running minimum of the squared distances from the other points seen so far; the last
    `j` takes the square root and the block is written back. So the output array ends, at anchor `A`, at the square
    root of the minimum over all 16384 other points of the squared distance to anchor `A`. -/

noncomputable section

namespace Cert.KernelIdeal.Reg1

open Cert.KernelIdeal Cert.KernelIdeal.Gen Idealize.ShloMosaic Idealize.ShloMosaic.TcCoe Idealize.SL.Sem
open Idealize.ShloMosaic.ValueIdx Cert.Nearest
open Idealize.ShloMosaic.Pipeline (Dat)

variable (V : (c : Dev nD) → (b : Ref sig .tc) → Buf (Elt Ideal) ((c : Thread nD τ).loc b))

/-- Other point `b`: row `b` of the call's first operand. -/
def oth (c : Dev nD) (b : Fin 16384) : Fin 3 → EReal := fun k => V c main_arg0 (ix2 b k)
/-- Anchor `A`: column `A` of the call's second operand. -/
def anc (c : Dev nD) (A : Fin 16384) : Fin 3 → EReal := fun k => V c main_v3 (ix2 k A)

/-- Entry `a` of block `q`. -/
def blkIdx (q : Fin 16) (a : Fin 1024) : Fin 16384 := ⟨1024 * q.val + a.val, by have := q.isLt; have := a.isLt; omega⟩

/-- The squared distances from every other point to anchor `a` of block `q`. -/
def dists (c : Dev nD) (q : Fin 16) (a : Fin 1024) : Fin 16384 → EReal := fun b => sqd (oth V c b) (anc V c (blkIdx q a))

/-- The printed index maps over the grid: the other points' block moves with `t % 16`, the anchors' and the output's
    with `t / 16`. -/
theorem idx_facts : ∀ t : Fin cfg1.N, win1_0.index t (0 : Fin 2) = t.val % 16 ∧ win1_0.index t (1 : Fin 2) = 0
    ∧ win1_1.index t (0 : Fin 2) = 0 ∧ win1_1.index t (1 : Fin 2) = t.val / 16
    ∧ win1_2.index t (0 : Fin 2) = 0 ∧ win1_2.index t (1 : Fin 2) = t.val / 16 :=
  (by decide +kernel : ∀ t : Fin grid1.N, _)

/-- The other points' block at point `16 q + j` is rows `1024 j …`. -/
theorem iblk_oth (c : Dev nD) (t : Fin cfg1.N) (q j : Fin 16) (ht : t.val = 16 * q.val + j.val) (r : Fin 1024) (k : Fin 3) :
    (iblk1 V c 0 t : Vec Ideal S1024x3 .f32) (ix2 r k) = oth V c (blkIdx j r) k := by
  unfold iblk1 oth
  rw [View.read_apply]
  show V c main_arg0 _ = V c main_arg0 _
  refine congrArg (V c main_arg0) (funext fun d => Fin.ext ?_)
  obtain ⟨e0, e1, -⟩ := idx_facts t
  have hj := j.isLt
  match d with
  | ⟨0, _⟩ => show win1_0.index t (0 : Fin 2) * 1024 + 1 * r.val = 1024 * j.val + r.val; omega
  | ⟨1, _⟩ => show win1_0.index t (1 : Fin 2) * 3 + 1 * k.val = k.val; omega

/-- The anchors' block at point `16 q + j` is columns `1024 q …`. -/
theorem iblk_anc (c : Dev nD) (t : Fin cfg1.N) (q j : Fin 16) (ht : t.val = 16 * q.val + j.val) (a : Fin 1024) (k : Fin 3) :
    (iblk1 V c 1 t : Vec Ideal S3x1024 .f32) (ix2 k a) = anc V c (blkIdx q a) k := by
  unfold iblk1 anc
  rw [View.read_apply]
  show V c main_v3 _ = V c main_v3 _
  refine congrArg (V c main_v3) (funext fun d => Fin.ext ?_)
  obtain ⟨-, -, e2, e3, -⟩ := idx_facts t
  have hj := j.isLt
  match d with
  | ⟨0, _⟩ => show win1_1.index t (0 : Fin 2) * 3 + 1 * k.val = k.val; omega
  | ⟨1, _⟩ => show win1_1.index t (1 : Fin 2) * 1024 + 1 * a.val = 1024 * q.val + a.val; omega

/-- The block's share of the minimum at point `16 q + j`: the infimum over block `j` of the distances to anchor `a` of block `q`. -/
theorem block_inf (c : Dev nD) (t : Fin cfg1.N) (q j : Fin 16) (ht : t.val = 16 * q.val + j.val) (a : Fin 1024) :
    ((Finset.univ : Finset (Fin 1024)).inf fun r =>
        sqd (fun k => (iblk1 V c 0 t : Vec Ideal S1024x3 .f32) (ix2 r k)) (fun k => (iblk1 V c 1 t : Vec Ideal S3x1024 .f32) (ix2 k a)))
      = (Finset.univ : Finset (Fin 1024)).inf fun r => dists V c q a (blkIdx j r) :=
  Finset.inf_congr rfl fun r _ =>
    congrArg₂ sqd (funext fun k => iblk_oth V c t q j ht r k) (funext fun k => iblk_anc V c t q j ht a k)

/-- What the output's staging buffer holds at anchor `a` after point `16 q + j`: the minimum over the other points of
    blocks `0 … j`, and at the last `j` its square root over all of them. -/
def running (c : Dev nD) (q : Fin 16) (j : ℕ) (a : Fin 1024) : EReal :=
  if j = 15 then Ideal.sqrt (Finset.univ.inf (dists V c q a))
  else (Finset.univ.filter fun b : Fin 16384 => b.val < 1024 * (j + 1)).inf (dists V c q a)

theorem outsAt_eq (c : Dev nD) (q : Fin 16) : ∀ (j : ℕ) (hj : j < 16) (hn : 16 * q.val + j < cfg1.N) (a : Fin 1024),
    outsAt1 V c (16 * q.val + j) hn (ix2 (0 : Fin 1) a) = running V c q j a
  | 0, hj, hn, a => by
    have hA := outsAt1_A V c ⟨16 * q.val + 0, hn⟩ (by show (16 * q.val + 0) % 16 = 0; omega)
      (by show ¬(16 * q.val + 0) % 16 = 15; omega)
    rw [show outsAt1 V c (16 * q.val + 0) hn = _ from hA, Cases1.out_A]
    refine (Pay1.pay2_apply (iblk1 V c 0 ⟨16 * q.val + 0, hn⟩) (iblk1 V c 1 ⟨16 * q.val + 0, hn⟩) _ a).trans ?_
    rw [Pay1.pay1_apply, block_inf V c ⟨16 * q.val + 0, hn⟩ q 0 rfl a]
    unfold running
    rw [if_neg (by omega), inf_below_succ _ 0 (by omega), inf_below_zero]
    rfl
  | j + 1, hj, hn, a => by
    have ih := outsAt_eq c q j (by omega) (by omega) a
    have same : ∀ (u : ℕ) (hu : u < cfg1.N) (e : u = 16 * q.val + j),
        outsAt1 V c u hu = outsAt1 V c (16 * q.val + j) (by omega) := by
      intro u hu e; subst e; rfl
    by_cases h15 : j + 1 = 15
    · have hC := outsAt1_C V c ⟨16 * q.val + (j + 1), hn⟩ (by show ¬(16 * q.val + (j + 1)) % 16 = 0; omega)
        (by show (16 * q.val + (j + 1)) % 16 = 15; omega)
      rw [show outsAt1 V c (16 * q.val + (j + 1)) hn = _ from hC, Cases1.out_C]
      refine (Pay1.pay3_apply _ a).trans ?_
      refine (congrArg Ideal.sqrt (Pay1.pay2_apply (iblk1 V c 0 ⟨16 * q.val + (j + 1), hn⟩)
        (iblk1 V c 1 ⟨16 * q.val + (j + 1), hn⟩) _ a)).trans ?_
      rw [block_inf V c ⟨16 * q.val + (j + 1), hn⟩ q ⟨j + 1, hj⟩ rfl a,
        same _ _ (by show 16 * q.val + (j + 1) - 1 = 16 * q.val + j; omega), ih]
      unfold running
      rw [if_neg (by omega), if_pos h15, inf_all_split (dists V c q a) (j + 1) (by omega)]
      rfl
    · have hB := outsAt1_B V c ⟨16 * q.val + (j + 1), hn⟩ (by show ¬(16 * q.val + (j + 1)) % 16 = 0; omega)
        (by show ¬(16 * q.val + (j + 1)) % 16 = 15; omega)
      rw [show outsAt1 V c (16 * q.val + (j + 1)) hn = _ from hB, Cases1.out_B]
      refine (Pay1.pay2_apply (iblk1 V c 0 ⟨16 * q.val + (j + 1), hn⟩)
        (iblk1 V c 1 ⟨16 * q.val + (j + 1), hn⟩) _ a).trans ?_
      rw [block_inf V c ⟨16 * q.val + (j + 1), hn⟩ q ⟨j + 1, hj⟩ rfl a,
        same _ _ (by show 16 * q.val + (j + 1) - 1 = 16 * q.val + j; omega), ih]
      unfold running
      rw [if_neg (by omega), if_neg h15, inf_below_succ (dists V c q a) (j + 1) (by omega)]
      rfl

/-- What the output array holds after the call: at anchor `A` the square root of the least squared distance from the
    other points. -/
def result (c : Dev nD) : Buf (Elt Ideal) ((c : Thread nD τ).loc main_v4) :=
  fun i => Ideal.sqrt (Finset.univ.inf fun b => sqd (oth V c b) (anc V c ⟨(i 1).val, (i 1).isLt⟩))

/-- After the last point of row `q` the staging buffer holds block `q` of `result`. -/
theorem last_eq (c : Dev nD) (t : Fin cfg1.N) (q : Fin 16) (ht : t.val = 16 * q.val + 15) (a : Fin 1024) :
    outsAt1 V c t.val t.isLt (ix2 (0 : Fin 1) a) = result V c (ix2 (0 : Fin 1) (blkIdx q a)) := by
  have same : ∀ (u : ℕ) (hu : u < cfg1.N) (e : u = 16 * q.val + 15),
      outsAt1 V c u hu = outsAt1 V c (16 * q.val + 15) (by omega) := by
    intro u hu e; subst e; rfl
  rw [same _ _ ht, outsAt_eq V c q 15 (by omega) _ a]
  unfold running result dists
  rw [if_pos rfl]
  rfl

/-- What a writing point writes back is its block of `result`. -/
theorem flushed_eq (c : Dev nD) (t : Fin cfg1.N) (hf : (cfg1.win 2).flush t = true) :
    (dat1 V c).flushed 2 t = ((cfg1.win 2).blk t).view.read (Elt Ideal) (result V c) := by
  have h15 := (flush1_2 t).mp hf
  have hN : cfg1.N = 256 := N_1
  have htl := t.isLt
  obtain ⟨-, -, -, -, e4, e5⟩ := idx_facts t
  show (cfg1.win 2).cut (grid1.coords t) ((dat1 V c).after 2 t) = _
  rw [after1_2]
  refine funext fun (y : S1x1024.Idx) => ?_
  rw [View.read_apply]
  have hy0 : (y 0).val < 1 := (y 0).isLt
  have hy : y = ix2 (0 : Fin 1) ⟨(y 1).val, (y 1).isLt⟩ := by
    funext d
    match d with
    | ⟨0, _⟩ => exact Fin.ext (by show (y 0).val = 0; omega)
    | ⟨1, _⟩ => rfl
  have hidx : ((cfg1.win 2).blk t).view.emb y
      = ix2 (0 : Fin 1) (blkIdx ⟨t.val / 16, by omega⟩ ⟨(y 1).val, (y 1).isLt⟩) := by
    funext d; apply Fin.ext
    match d with
    | ⟨0, _⟩ => show win1_2.index t (0 : Fin 2) * 1 + 1 * (y 0).val = 0; omega
    | ⟨1, _⟩ => show win1_2.index t (1 : Fin 2) * 1024 + 1 * (y 1).val = 1024 * (t.val / 16) + (y 1).val; omega
  rw [hidx]
  exact (congrArg (outsAt1 V c t.val t.isLt) hy).trans
    (last_eq V c t ⟨t.val / 16, by omega⟩ (by show t.val = 16 * (t.val / 16) + 15; omega) ⟨(y 1).val, (y 1).isLt⟩)

/-- Every anchor's entry is in the block of the last point of its row. -/
theorem cover (i : S1x16384.Idx) : ∃ t : Fin cfg1.N, (cfg1.win 2).flush t = true ∧ i ∈ ((cfg1.win 2).blk t).view.set := by
  have hN : cfg1.N = 256 := N_1
  have h0 : (i 0).val < 1 := (i 0).isLt
  have h1 : (i 1).val < 16384 := (i 1).isLt
  have ht : 16 * ((i 1).val / 1024) + 15 < cfg1.N := by omega
  obtain ⟨-, -, -, -, e4, e5⟩ := idx_facts ⟨16 * ((i 1).val / 1024) + 15, ht⟩
  refine ⟨⟨16 * ((i 1).val / 1024) + 15, ht⟩, (flush1_2 _).mpr (by show (16 * ((i 1).val / 1024) + 15) % 16 = 15; omega), ?_⟩
  show i ∈ ((View.whole main_v4).slice (win1_2.rect ⟨16 * ((i 1).val / 1024) + 15, ht⟩)).set
  rw [View.set_slice_whole, Rect.mem_set_unit]
  intro a
  match a with
  | ⟨0, _⟩ =>
    show win1_2.index ⟨16 * ((i 1).val / 1024) + 15, ht⟩ (0 : Fin 2) * 1 ≤ (i 0).val
      ∧ (i 0).val < win1_2.index ⟨16 * ((i 1).val / 1024) + 15, ht⟩ (0 : Fin 2) * 1 + 1
    rw [e4]; omega
  | ⟨1, _⟩ =>
    show win1_2.index ⟨16 * ((i 1).val / 1024) + 15, ht⟩ (1 : Fin 2) * 1024 ≤ (i 1).val
      ∧ (i 1).val < win1_2.index ⟨16 * ((i 1).val / 1024) + 15, ht⟩ (1 : Fin 2) * 1024 + 1024
    rw [e5]
    show (16 * ((i 1).val / 1024) + 15) / 16 * 1024 ≤ (i 1).val ∧ (i 1).val < (16 * ((i 1).val / 1024) + 15) / 16 * 1024 + 1024
    omega

/-- The output array after the call. -/
theorem final (c : Dev nD) : (dat1 V c).arrAt 2 cfg1.N = result V c :=
  (dat1 V c).arrAt_eq_of_cover 2 (result V c) (flushed_eq V c) cover

end Cert.KernelIdeal.Reg1

end
-- ==== Proof.Target.lean ====
import proofs.«165378_j30442728194567_2_alg».proof.Proof.Spec
import Idealize.ShloMosaic.Lib.ValueIdx

/-! The common value of the two programs: for two clouds of 16384 points of three coordinates, the distance from each
    point of one cloud to the nearest point of the other — the square root of the least squared distance —, and the
    two spellings of it: the root of the minimum of the coordinate-difference form, and the minimum (along a row or along
    a column of the pairwise matrix) of the roots of the norms-and-inner-product form. The two agree when every
    coordinate is a real number. -/

noncomputable section

namespace Cert.Nearest

open Idealize.ShloMosaic Idealize.ShloMosaic.ValueIdx

/-- A cloud: 16384 points, three coordinates each. -/
abbrev Cloud := (⟨2, ![16384, 3]⟩ : Shape).Idx → EReal

/-- For each point `i` of the cloud `A`, its distance to the nearest point of the cloud `O`. -/
def near (O A : Cloud) : (⟨1, ![16384]⟩ : Shape).Idx → EReal :=
  fun i => Ideal.sqrt (Finset.univ.inf fun b : Fin 16384 =>
    sqd (fun k => O (ix2 b k)) (fun k => A (ix2 (⟨(i 0).val, (i 0).isLt⟩ : Fin 16384) k)))

/-- Every coordinate of the cloud is a real number. -/
def Real' (x : Cloud) : Prop := ∀ i, ∃ r : ℝ, x i = (r : EReal)

/-- Along row `i` of the pairwise matrix: the least root of the norms-and-inner-product form is the distance from point
    `i` of the first cloud to the nearest point of the second. -/
theorem inf_row (x0 x1 : Cloud) (h0 : Real' x0) (h1 : Real' x1) (i : Fin 16384) :
    (Finset.univ.inf fun j : Fin 16384 =>
        Ideal.sqrt (polar 0 0 2 0 (fun k => x0 (ix2 i k)) (fun k => x1 (ix2 j k)))) = near x1 x0 (ix1 i) := by
  choose a ha using h0
  choose b hb using h1
  unfold near
  rw [sqrt_inf]
  refine Finset.inf_congr rfl fun j _ => congrArg Ideal.sqrt ?_
  simp only [ha, hb]
  exact polar_eq_sqd (fun k => a (ix2 i k)) (fun k => b (ix2 j k))

/-- Along column `j`: the least root is the distance from point `j` of the second cloud to the nearest point of the first. -/
theorem inf_col (x0 x1 : Cloud) (h0 : Real' x0) (h1 : Real' x1) (j : Fin 16384) :
    (Finset.univ.inf fun i : Fin 16384 =>
        Ideal.sqrt (polar 0 0 2 0 (fun k => x0 (ix2 i k)) (fun k => x1 (ix2 j k)))) = near x0 x1 (ix1 j) := by
  choose a ha using h0
  choose b hb using h1
  unfold near
  rw [sqrt_inf]
  refine Finset.inf_congr rfl fun i _ => congrArg Ideal.sqrt ?_
  simp only [ha, hb]
  exact (polar_eq_sqd (fun k => a (ix2 i k)) (fun k => b (ix2 j k))).trans
    (sqd_comm_real (fun k => a (ix2 i k)) (fun k => b (ix2 j k)))

end Cert.Nearest

end
-- ==== Proof.KernelValue.lean ====
import proofs.«165378_j30442728194567_2_alg».proof.Proof.Gen.KernelIdeal.Frame
import proofs.«165378_j30442728194567_2_alg».proof.Proof.KernelRun
import proofs.«165378_j30442728194567_2_alg».proof.Proof.Region0
import proofs.«165378_j30442728194567_2_alg».proof.Proof.Region1
import proofs.«165378_j30442728194567_2_alg».proof.Proof.Target
import Idealize.ShloMosaic.Lib.StableHlo.Run
import Idealize.ShloMosaic.Lib.Pipeline.Value
import Idealize.ShloMosaic.Lib.ValueIdx
import Idealize.ShloMosaic.PureOps.Ideal

/-! The kernel program's result, read through its host stretches: the first call sees the second cloud as the other
    points and the transposed first cloud as the anchors, the second call the reverse; each call's output row, recast as
    a vector, is the nearest-point distance of every anchor; the two vectors are summed from zero and the two sums added. -/

noncomputable section

namespace Cert.KernelIdeal.KV

open Cert.KernelIdeal Cert.KernelIdeal.Gen Idealize.ShloMosaic Idealize.ShloMosaic.TcCoe Idealize.SL.Sem
open Idealize.ShloMosaic.StableHlo Idealize.ShloMosaic.ValueIdx Cert.Nearest
open Idealize.ShloMosaic.Pipeline (Dat)

variable (m : (ℓ : Loc nD τ sig) → Buf (Elt Ideal) ℓ) (ρ : Dev nD → PrngReg)

/-- A row of 16384 entries recast as a vector, read at `a`, is entry `(0, a)`. -/
theorem dropRow_apply (v : S1x16384.Idx → EReal) (h : S1x16384.ShapeCasts S16384) (a : Fin 16384) :
    shapeCast S16384 v h (ix1 a) = v (ix2 (0 : Fin 1) a) :=
  (shapeCast_dropUnit_apply ![16384] v h (ix1 a)).trans (congrArg v (funext fun d => by fin_cases d <;> rfl))

/-- The transposed cloud at `(k, A)` is coordinate `k` of point `A`. -/
theorem transposed_apply (x : S16384x3.Idx → EReal) (h : S16384x3.Transposes [1, 0] S3x16384) (k : Fin 3) (A : Fin 16384) :
    transpose S3x16384 [1, 0] x h (ix2 k A) = x (ix2 A k) :=
  transpose_apply [1, 0] x h (ix2 k A) (ix2 A k) (fun b => match b with
    | ⟨0, _⟩ => rfl
    | ⟨1, _⟩ => rfl)

/-! ### What the first call is entered with -/

theorem V1_arg1 (c : Dev nD) : V1 m ρ c main_arg1 = m ((c : Thread nD τ).loc main_arg1) := by
  show StableHlo.after hostOps0 (W0 m ρ c) (Proc.devRef .tc main_arg1) = _
  after_results

theorem V1_arg0 (c : Dev nD) : V1 m ρ c main_arg0 = m ((c : Thread nD τ).loc main_arg0) := by
  show StableHlo.after hostOps0 (W0 m ρ c) (Proc.devRef .tc main_arg0) = _
  after_results

theorem V1_v0 (c : Dev nD) : V1 m ρ c main_v0
    = transpose S3x16384 [1, 0] (m ((c : Thread nD τ).loc main_arg0)) transposes_S16384x3_S3x16384_1_0 := by
  show StableHlo.after hostOps0 (W0 m ρ c) (Proc.devRef .tc main_v0) = _
  after_results

/-! ### What the second call is entered with -/

theorem W2_arg1 (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (V1_arg1 m ρ c)

theorem W2_arg0 (c : Dev nD) : W2 m ρ c (Proc.devRef .tc main_arg0) = m ((c : Thread nD τ).loc main_arg0) :=
  (W2_of_ne m ρ c main_arg0 (by decide)).trans (V1_arg0 m ρ c)

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c

theorem V3_v3 (c : Dev nD) : V3 m ρ c main_v3
    = transpose S3x16384 [1, 0] (m ((c : Thread nD τ).loc main_arg1)) transposes_S16384x3_S3x16384_1_0 := by
  show StableHlo.after hostOps1 (W2 m ρ c) (Proc.devRef .tc main_v3) = _
  after_results
  exact congrArg (fun x => transpose S3x16384 [1, 0] x transposes_S16384x3_S3x16384_1_0) (W2_arg1 m ρ c)

/-! ### The two output rows as vectors -/

theorem W4_v2 (c : Dev nD) : W4 m ρ c (Proc.devRef .tc main_v2)
    = shapeCast S16384 (Reg0.result (V1 m ρ) c) shapeCasts_S1x16384_S16384 := by
  rw [W4_of_ne m ρ c main_v2 (by decide)]
  show StableHlo.after hostOps1 (W2 m ρ c) (Proc.devRef .tc main_v2) = _
  after_results
  have e : W2 m ρ c (Proc.devRef .tc main_v1) = Reg0.result (V1 m ρ) c := (W2_arr m ρ c 2).trans (Reg0.final (V1 m ρ) c)
  exact (show _ = shapeCast S16384 (W2 m ρ c (Proc.devRef .tc main_v1)) shapeCasts_S1x16384_S16384 from rfl).trans
    (congrArg (fun x => shapeCast S16384 x shapeCasts_S1x16384_S16384) e)

theorem W4_v4 (c : Dev nD) : W4 m ρ c (Proc.devRef .tc main_v4) = Reg1.result (V3 m ρ) c :=
  (W4_arr m ρ c 2).trans (Reg1.final (V3 m ρ) c)

/-- The result buffer: the two vectors summed from zero, the sums added. -/
theorem W5_v8 (c : Dev nD) : W5 m ρ c (Proc.devRef .tc main_v8)
    = addf (Host.reduceAdd (shapeCast S16384 (Reg0.result (V1 m ρ) c) shapeCasts_S1x16384_S16384)
          (constant (F := Ideal) S_ .f32 0x00000000#32) reducesTo_S16384_S_d0 h_S_)
        (Host.reduceAdd (shapeCast S16384 (Reg1.result (V3 m ρ) c) shapeCasts_S1x16384_S16384)
          (constant (F := Ideal) S_ .f32 0x00000000#32) reducesTo_S16384_S_d0 h_S_) := by
  show StableHlo.after hostOps2 (W4 m ρ c) (Proc.devRef .tc main_v8) = _
  after_results
  refine (show _ = addf (Host.reduceAdd (W4 m ρ c (Proc.devRef .tc main_v2))
          (constant (F := Ideal) S_ .f32 0x00000000#32) reducesTo_S16384_S_d0 h_S_)
        (Host.reduceAdd (shapeCast S16384 (W4 m ρ c (Proc.devRef .tc main_v4)) shapeCasts_S1x16384_S16384)
          (constant (F := Ideal) S_ .f32 0x00000000#32) reducesTo_S16384_S_d0 h_S_) from rfl).trans ?_
  rw [W4_v2, W4_v4]

/-- The first call's vector: for each point of the first cloud, its distance to the nearest point of the second. -/
theorem res0_eq (c : Dev nD) : shapeCast S16384 (Reg0.result (V1 m ρ) c) shapeCasts_S1x16384_S16384
    = near (m ((c : Thread nD τ).loc main_arg1)) (m ((c : Thread nD τ).loc main_arg0)) := by
  funext i
  obtain ⟨a, rfl⟩ : ∃ a : Fin 16384, i = ix1 a := ⟨i 0, eq_ix1 i⟩
  refine (dropRow_apply _ _ a).trans ?_
  unfold Reg0.result near Reg0.oth Reg0.anc
  refine congrArg Ideal.sqrt (Finset.inf_congr rfl fun b _ => congrArg₂ sqd (funext fun k => ?_) (funext fun k => ?_))
  · rw [V1_arg1]
  · rw [V1_v0]
    exact transposed_apply _ _ k _

/-- The second call's vector: for each point of the second cloud, its distance to the nearest point of the first. -/
theorem res1_eq (c : Dev nD) : shapeCast S16384 (Reg1.result (V3 m ρ) c) shapeCasts_S1x16384_S16384
    = near (m ((c : Thread nD τ).loc main_arg0)) (m ((c : Thread nD τ).loc main_arg1)) := by
  funext i
  obtain ⟨a, rfl⟩ : ∃ a : Fin 16384, i = ix1 a := ⟨i 0, eq_ix1 i⟩
  refine (dropRow_apply _ _ a).trans ?_
  unfold Reg1.result near Reg1.oth Reg1.anc
  refine congrArg Ideal.sqrt (Finset.inf_congr rfl fun b _ => congrArg₂ sqd (funext fun k => ?_) (funext fun k => ?_))
  · rw [V3_arg0]
  · rw [V3_v3]
    exact transposed_apply _ _ k _

/-- The kernel program's run: the result is the two nearest-point distance vectors summed from zero and added. -/
theorem run : θ_run defs (onTc (τ := τ) (main (F := Ideal))) ⟨m, fun _ => 0, ρ⟩ (fun r => ∀ c : Dev nD,
      r.2.mem ((c.tc : Thread nD τ).loc main_v8)
        = addf (Host.reduceAdd (near (m ((c : Thread nD τ).loc main_arg1)) (m ((c : Thread nD τ).loc main_arg0)))
              (constant (F := Ideal) S_ .f32 0x00000000#32) reducesTo_S16384_S_d0 h_S_)
            (Host.reduceAdd (near (m ((c : Thread nD τ).loc main_arg0)) (m ((c : Thread nD τ).loc main_arg1)))
              (constant (F := Ideal) S_ .f32 0x00000000#32) reducesTo_S16384_S_d0 h_S_)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (by rw [W5_v8, res0_eq, res1_eq]), (h c).2⟩)
    (Cert.KernelIdeal.Run.run_result m ρ)

end Cert.KernelIdeal.KV

end
-- ==== Proof.Consts.lean ====
import Idealize.ShloMosaic.PureOps.Ideal

/-! The float constants the two programs spell, as the extended reals their patterns denote. -/

noncomputable section

namespace Cert.Consts

open Idealize.ShloMosaic

/-- The pattern of `+∞` is the top element. -/
theorem ofBits_top : Ideal.ofBits .f32 0x7F800000#32 = ⊤ := by simp [Ideal.ofBits, Ideal.ieee]

/-- The pattern of `+0.0` denotes `0`. -/
theorem ofBits_zero : Ideal.ofBits .f32 0x00000000#32 = 0 := by simp [Ideal.ofBits, Ideal.ieee]

/-- The pattern of `2.0` denotes `2`. -/
theorem ofBits_two : Ideal.ofBits .f32 0x40000000#32 = 2 := by
  simp [Ideal.ofBits, Ideal.ieee, -EReal.coe_mul]; norm_num; norm_cast

end Cert.Consts

end
-- ==== Proof.RefRead.lean ====
import proofs.«165378_j30442728194567_2_alg».proof.Defs
import proofs.«165378_j30442728194567_2_alg».proof.Proof.Gen.ReferenceIdeal.Run
import proofs.«165378_j30442728194567_2_alg».proof.Proof.Gen.ReferenceIdeal.Read
import proofs.«165378_j30442728194567_2_alg».proof.Proof.Target
import proofs.«165378_j30442728194567_2_alg».proof.Proof.Consts
import Idealize.ShloMosaic.Lib.ValueIdx
import Idealize.ShloMosaic.PureOps.Ideal.Laws

/-! The reference, read at an index over the extended reals: entry `(i, j)` of its pairwise matrix is the root of the
    norms-and-inner-product form of points `i` and `j`; its two minimum-reductions are the infima along a row and along
    a column; so, on clouds of real coordinates, the two reduced vectors are the nearest-point distances. -/

noncomputable section

namespace Cert.ReferenceIdeal.RefValue

open Cert.ReferenceIdeal Cert.ReferenceIdeal.Gen Cert.ReferenceIdeal.Read Idealize.ShloMosaic Idealize.ShloMosaic.ValueIdx Cert.Nearest

theorem e1 (i j : Fin 16384) (k : Fin 3) : idx_main_v1 (idx_main_v2 (idx_main_v7 (ix2 i j))) k = ix2 i k :=
  funext fun a => Fin.ext (by match a with | ⟨0, _⟩ => rfl | ⟨1, _⟩ => rfl)
theorem e2 (i j : Fin 16384) (k : Fin 3) : idx_main_v4 (idx_main_v5 (idx_main_v6 (idx_main_v8 (ix2 i j)))) k = ix2 j k :=
  funext fun a => Fin.ext (by match a with | ⟨0, _⟩ => rfl | ⟨1, _⟩ => rfl)
theorem e3 (i j : Fin 16384) (k : Fin 3) : lidx_main_v11 (ix2 i j) k = ix2 i k :=
  funext fun a => Fin.ext (by match a with | ⟨0, _⟩ => rfl | ⟨1, _⟩ => rfl)
theorem e4 (i j : Fin 16384) (k : Fin 3) : idx_main_v10 (ridx_main_v11 (ix2 i j) k) = ix2 j k :=
  funext fun a => Fin.ext (by match a with | ⟨0, _⟩ => rfl | ⟨1, _⟩ => rfl)

/-- Entry `(i, j)` of the pairwise matrix. -/
theorem v17_at (x0 x1 : (⟨S16384x3, .f32⟩ : BufTy).Contents (Elt Ideal)) (i j : Fin 16384) :
    val_main_v17 (F := Ideal) x0 x1 (ix2 i j)
      = Ideal.sqrt (polar 0 0 2 0 (fun k => x0 (ix2 i k)) (fun k => x1 (ix2 j k))) := by
  rw [val_main_v17_apply, val_main_v16_apply, val_main_v15_apply, val_main_cst_2_apply, val_main_v14_apply,
    val_main_v13_apply, val_main_v12_apply, val_main_cst_1_apply, val_main_v11_apply, val_main_v9_apply,
    val_main_v8_apply, val_main_v6_apply, val_main_v5_apply, val_main_v4_apply, val_main_cst_0_apply,
    val_main_v7_apply, val_main_v2_apply, val_main_v1_apply, val_main_cst_apply]
  simp only [val_main_v10_apply, val_main_v3_apply, val_main_v0_apply, Fin.sum_univ_three, e1, e2, e3, e4,
    Ideal.hostUnary_sqrt_def, Ideal.maximumf_def, Ideal.subf_def, Ideal.mulf_def, Ideal.addf_def, Ideal.ofBits_def,
    Cert.Consts.ofBits_zero, Cert.Consts.ofBits_two]
  rfl

/-- Row `i` with column `j` put back is `(i, j)`. -/
theorem lift_row (h : S16384x16384.Reduces [1] S16384) (i : Fin 16384) (j : Fin (S16384x16384.size 1)) :
    h.lift (ix1 i) j = ix2 i (⟨j.val, j.isLt⟩ : Fin 16384) :=
  funext fun d => Fin.ext (by fin_cases d <;> rfl)

/-- Column `j` with row `i` put back is `(i, j)`. -/
theorem lift_col (h : S16384x16384.Reduces [0] S16384) (j : Fin 16384) (i : Fin (S16384x16384.size 0)) :
    h.lift (ix1 j) i = ix2 (⟨i.val, i.isLt⟩ : Fin 16384) j :=
  funext fun d => Fin.ext (by fin_cases d <;> rfl)

/-- The first reduced vector: the infimum along row `i`. -/
theorem v18_at (x0 x1 : (⟨S16384x3, .f32⟩ : BufTy).Contents (Elt Ideal)) (i : Fin 16384) :
    val_main_v18 (F := Ideal) x0 x1 (ix1 i) = Finset.univ.inf fun j : Fin 16384 => val_main_v17 (F := Ideal) x0 x1 (ix2 i j) := by
  unfold val_main_v18
  rw [Host.reduce_eq_fold_single FloatOps.minimumf _ _ reducesTo_S16384x16384_S16384_d1 (by decide) h_S_]
  have hf : (val_main_v17 (F := Ideal) x0 x1 ∘ (by decide : S16384x16384.Reduces [1] S16384).lift (ix1 i) : Fin 16384 → EReal)
      = fun j : Fin 16384 => val_main_v17 (F := Ideal) x0 x1 (ix2 i j) :=
    funext fun j => congrArg (val_main_v17 (F := Ideal) x0 x1) (lift_row _ i j)
  refine Eq.trans ?_ (fold_min_top Finset.univ fun j : Fin 16384 => val_main_v17 (F := Ideal) x0 x1 (ix2 i j))
  rw [← Cert.Consts.ofBits_top, ← hf]
  rfl

/-- The second reduced vector: the infimum along column `j`. -/
theorem v19_at (x0 x1 : (⟨S16384x3, .f32⟩ : BufTy).Contents (Elt Ideal)) (j : Fin 16384) :
    val_main_v19 (F := Ideal) x0 x1 (ix1 j) = Finset.univ.inf fun i : Fin 16384 => val_main_v17 (F := Ideal) x0 x1 (ix2 i j) := by
  unfold val_main_v19
  rw [Host.reduce_eq_fold_single FloatOps.minimumf _ _ reducesTo_S16384x16384_S16384_d0 (by decide) h_S_]
  have hf : (val_main_v17 (F := Ideal) x0 x1 ∘ (by decide : S16384x16384.Reduces [0] S16384).lift (ix1 j) : Fin 16384 → EReal)
      = fun i : Fin 16384 => val_main_v17 (F := Ideal) x0 x1 (ix2 i j) :=
    funext fun i => congrArg (val_main_v17 (F := Ideal) x0 x1) (lift_col _ j i)
  refine Eq.trans ?_ (fold_min_top Finset.univ fun i : Fin 16384 => val_main_v17 (F := Ideal) x0 x1 (ix2 i j))
  rw [← Cert.Consts.ofBits_top, ← hf]
  rfl

/-- On clouds of real coordinates the first reduced vector is, for each point of the first cloud, the distance to the
    nearest point of the second, -/
theorem v18_eq (x0 x1 : (⟨S16384x3, .f32⟩ : BufTy).Contents (Elt Ideal)) (h0 : Real' x0) (h1 : Real' x1) :
    val_main_v18 (F := Ideal) x0 x1 = near x1 x0 := by
  funext i
  obtain ⟨a, rfl⟩ : ∃ a : Fin 16384, i = ix1 a := ⟨i 0, eq_ix1 i⟩
  refine (v18_at x0 x1 a).trans ?_
  simp only [v17_at]
  exact inf_row x0 x1 h0 h1 a

/-- and the second, for each point of the second cloud, the distance to the nearest point of the first. -/
theorem v19_eq (x0 x1 : (⟨S16384x3, .f32⟩ : BufTy).Contents (Elt Ideal)) (h0 : Real' x0) (h1 : Real' x1) :
    val_main_v19 (F := Ideal) x0 x1 = near x0 x1 := by
  funext j
  obtain ⟨a, rfl⟩ : ∃ a : Fin 16384, j = ix1 a := ⟨j 0, eq_ix1 j⟩
  refine (v19_at x0 x1 a).trans ?_
  simp only [v17_at]
  exact inf_col x0 x1 h0 h1 a

end Cert.ReferenceIdeal.RefValue

end
-- ==== Proof.Finite.lean ====
import proofs.«165378_j30442728194567_2_alg».proof.Pre_finite_inputs
import proofs.«165378_j30442728194567_2_alg».proof.Proof.Gen.Pre_finite_inputs
import proofs.«165378_j30442728194567_2_alg».proof.Proof.Target
import proofs.«165378_j30442728194567_2_alg».proof.Proof.Consts
import Idealize.ShloMosaic.Lib.ReduceAll
import Idealize.ShloMosaic.Lib.ValueIdx
import Idealize.ShloMosaic.PureOps.Ideal.Laws

/-! The precondition read back: when every entry of both clouds has absolute value below `+∞`, every coordinate is a
    real number. -/

noncomputable section

namespace Cert.Finite

open Idealize.ShloMosaic Cert.Nearest

instance : Subsingleton Cert.Pre_finite_inputs.S_.Idx := ⟨fun a b => funext fun d => d.elim0⟩

/-- An extended real whose absolute value is below the top element is a real number. -/
theorem real_of_abs_lt (x : EReal) (h : max x (-x) < ⊤) : ∃ r : ℝ, x = (r : EReal) := by
  induction x using EReal.rec with
  | bot => simp at h
  | top => simp at h
  | coe r => exact ⟨r, rfl⟩

/-- A strict comparison that answered "true" holds. -/
theorem lt_of_cmp {x y : EReal} (h : Ideal.cmp .olt x y = 1#1) : x < y := by
  by_contra hn
  have : Ideal.cmp .olt x y = 0#1 := by
    show BitVec.ofBool (decide (x < y)) = 0#1
    rw [decide_eq_false hn]; rfl
  rw [this] at h
  exact absurd h (by decide)

/-- The precondition's one answer, all ones, says both clouds have real coordinates. -/
theorem real_of_pre [Cert.Pre_finite_inputs.Facts] (x0 x1 : FVec Ideal Cert.Pre_finite_inputs.S16384x3 .f32)
    (h : Cert.Pre_finite_inputs.fn (F := Ideal) x0 x1 = fun _ => 1#1) : Real' x0 ∧ Real' x1 := by
  have h' := congrFun h ValueIdx.ix0
  dsimp only [Cert.Pre_finite_inputs.fn] at h'
  obtain ⟨ha, hb⟩ := IntOp.andi_eq_one.mp h'
  refine ⟨fun i => ?_, fun i => ?_⟩
  · have e := Host.reduce_andi_all _ _ _ _ _ ha i
    have e' : Ideal.cmp .olt (max (x0 i) (-(x0 i))) (Ideal.ofBits .f32 0x7F800000#32) = 1#1 := e
    rw [Cert.Consts.ofBits_top] at e'
    exact real_of_abs_lt _ (lt_of_cmp e')
  · have e := Host.reduce_andi_all _ _ _ _ _ hb i
    have e' : Ideal.cmp .olt (max (x1 i) (-(x1 i))) (Ideal.ofBits .f32 0x7F800000#32) = 1#1 := e
    rw [Cert.Consts.ofBits_top] at e'
    exact real_of_abs_lt _ (lt_of_cmp e')

end Cert.Finite

end
-- ==== Proof.lean ====
/- The chamfer sum of two clouds of 16384 points in three coordinates: for every point of each cloud the distance to the
   nearest point of the other, all added up. The kernel program takes, per cloud, the minimum over the other cloud of the
   squared coordinate differences block by block and the square root once at the end; the reference takes the square root
   of the norms-and-inner-product form of every pair, floored at zero, and then the minimum along rows and along columns.
   For clouds of real coordinates the two forms of the squared distance agree (polarization: |u|² + |v|² - 2⟨u, v⟩ =
   |u - v|² ≥ 0) and the square root, being monotone with the top element fixed, moves across the minimum; so both
   programs end with the same two vectors of nearest-point distances, which both sum from zero and add. -/
import proofs.«165378_j30442728194567_2_alg».proof.Defs
import proofs.«165378_j30442728194567_2_alg».proof.Proof.Gen.Kernel
import proofs.«165378_j30442728194567_2_alg».proof.Proof.Gen.Kernel.Frame
import proofs.«165378_j30442728194567_2_alg».proof.Proof.Gen.KernelIdeal
import proofs.«165378_j30442728194567_2_alg».proof.Proof.Gen.KernelIdeal.Frame
import proofs.«165378_j30442728194567_2_alg».proof.Proof.Gen.ReferenceIdeal
import proofs.«165378_j30442728194567_2_alg».proof.Proof.Gen.ReferenceIdeal.Run
import proofs.«165378_j30442728194567_2_alg».proof.Proof.Gen.ReferenceIdeal.Read
import proofs.«165378_j30442728194567_2_alg».proof.Proof.Gen.Pre_finite_inputs
import proofs.«165378_j30442728194567_2_alg».proof.Proof.KernelValue
import proofs.«165378_j30442728194567_2_alg».proof.Proof.RefRead
import proofs.«165378_j30442728194567_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the two nearest-point distance vectors of the same clouds, summed from zero and added: the
    kernel program by its two calls' running minima, the reference by its row and column minima of the pairwise
    matrix, which on clouds of real coordinates (the precondition) are those vectors. -/
theorem algebraic : Cert.algebraic_KernelIdeal_ReferenceIdeal := by
  intro m ρ m' ρ' hpre hagree
  refine ⟨_, Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Finite.real_of_pre _ _ (hpre c)
  rw [Cert.ReferenceIdeal.Read.val_main_v22_eq, (hagree c).1, (hagree c).2]
  unfold Cert.ReferenceIdeal.Read.val_main_v22 Cert.ReferenceIdeal.Read.val_main_v20 Cert.ReferenceIdeal.Read.val_main_v21
  rw [Cert.ReferenceIdeal.RefValue.v18_eq _ _ h0 h1, Cert.ReferenceIdeal.RefValue.v19_eq _ _ h0 h1]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
